-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S96x3 : Shape := ⟨2, ![96, 3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S96x3 : S_.BroadcastsInDim S96x3 (![] : Fin 0 → Fin S96x3.rank)
  reducesTo_S96x3_S_d0_1 : S96x3.ReducesTo [0, 1] S_

variable [Facts]

def fn {F : FTy → Type} [FloatOps F] (main_arg0 : FVec F S1000000x3 .f32) (main_arg1 : FVec F S96x3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S96x3 .f32 := Host.absf main_arg1
  let main_cst_0 : FVec F S_ .f32 := constant S_ .f32 0x7F800000#32
  let main_v5 : FVec F S96x3 .f32 := broadcastInDim S96x3 ![] bcast_S_S96x3 main_cst_0
  let main_v6 : IVec S96x3 1 := cmpf .olt main_v4 main_v5
  let main_c_1 : IVec S_ 1 := constantI S_ 1 1#1
  let main_v7 : IVec S_ 1 := (fun x v => Host.reduce IntOp.andi x v reducesTo_S96x3_S_d0_1 h_S_) main_v6 main_c_1
  let main_v8 : IVec S_ 1 := andi main_v3 main_v7
  main_v8
-- ==== Kernel.lean ====
abbrev S1000000x3 : Shape := ⟨2, ![1000000, 3]⟩
abbrev S96x3 : Shape := ⟨2, ![96, 3]⟩
abbrev S6x16x3 : Shape := ⟨3, ![6, 16, 3]⟩
abbrev S_ : Shape := ⟨0, ![]⟩
abbrev S16x3 : Shape := ⟨2, ![16, 3]⟩
abbrev S8000x3 : Shape := ⟨2, ![8000, 3]⟩
abbrev S8000x1 : Shape := ⟨2, ![8000, 1]⟩
abbrev S8000x4 : Shape := ⟨2, ![8000, 4]⟩
abbrev S8000x16 : Shape := ⟨2, ![8000, 16]⟩

abbrev nBuf : Space → Nat
  | .hbm => 6
  | .vmem => 5
  | .smem => 0
  | _ => 0

abbrev bufTy : (tb : Table) → Fin (tcTables nBuf tb) → BufTy
  | .hbm, ⟨0, _⟩ => ⟨S1000000x3, .f32⟩
  | .hbm, ⟨1, _⟩ => ⟨S96x3, .f32⟩
  | .hbm, ⟨2, _⟩ => ⟨S6x16x3, .f32⟩
  | .hbm, ⟨3, _⟩ => ⟨S_, .f32⟩
  | .hbm, ⟨4, _⟩ => ⟨S16x3, .f32⟩
  | .hbm, ⟨5, _⟩ => ⟨S1000000x3, .f32⟩
  | .local _ .vmem, ⟨0, _⟩ => ⟨S8000x3, .f32⟩
  | .local _ .vmem, ⟨1, _⟩ => ⟨S8000x3, .f32⟩
  | .local _ .vmem, ⟨2, _⟩ => ⟨S16x3, .f32⟩
  | .local _ .vmem, ⟨3, _⟩ => ⟨S8000x3, .f32⟩
  | .local _ .vmem, ⟨4, _⟩ => ⟨S8000x3, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S96x3_S6x16x3 : S96x3.ShapeCasts S6x16x3
  reducesTo_S6x16x3_S16x3_d0 : S6x16x3.ReducesTo [0] S16x3
  h_S_ : 0 < S_.numel
  inb_S8000x3_S8000x3_0_0 : ∀ a, (![0, 0] : Fin 2 → Nat) a + S8000x3.size a ≤ S8000x3.size a
  h_S8000x3 : 0 < S8000x3.numel
  bitsLt_bf16_f32 : FTy.bits .bf16 < FTy.bits .f32
  concatenates_S8000x3_S8000x1_S8000x4_d1 : Shape.Concatenates [S8000x3, S8000x1] S8000x4 1
  slices_S8000x4_o0_0_S8000x1 : S8000x4.Slices ![0, 0] S8000x1
  broadcasts_S8000x1_S8000x4 : S8000x1.Broadcasts S8000x4
  slices_S8000x4_o0_1_S8000x1 : S8000x4.Slices ![0, 1] S8000x1
  slices_S8000x4_o0_2_S8000x1 : S8000x4.Slices ![0, 2] S8000x1
  slices_S8000x4_o0_3_S8000x1 : S8000x4.Slices ![0, 3] S8000x1
  concatenates_S8000x4_S8000x4_S8000x4_S8000x4_S8000x16_d1 : Shape.Concatenates [S8000x4, S8000x4, S8000x4, S8000x4] S8000x16 1
  inb_S16x3_S16x3_0_0 : ∀ a, (![0, 0] : Fin 2 → Nat) a + S16x3.size a ≤ S16x3.size a
  h_S16x3 : 0 < S16x3.numel
  shapeCasts_S16x3_S16x3 : S16x3.ShapeCasts S16x3
  dot_S8000x16_S16x3_S8000x3_1_0_0_1_n_n_wf : DotDims.WF S8000x16 S16x3 S8000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S1000000x3.size a
  hwx0_0 : ∀ i : grid0.Coords, EltTy.bits .f32 = 32 ∨ (Rect.block (s := S1000000x3) S8000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x3.size a ≤ S16x3.size a
  hwx0_1 : ∀ i : grid0.Coords, EltTy.bits .f32 = 32 ∨ (Rect.block (s := S16x3) S16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x3.size a ≤ S1000000x3.size a
  hwx0_2 : ∀ i : grid0.Coords, EltTy.bits .f32 = 32 ∨ (Rect.block (s := S1000000x3) S8000x3.size (cc0_transform_2 i) (hinb0_2 i)).WholeWords (EltTy.packing .f32)

variable [Facts₀]

def dot_S8000x16_S16x3_S8000x3_1_0_0_1_n_n : DotDims S8000x16 S16x3 S8000x3 where
  lhsContracting := [1]
  rhsContracting := [0]
  lhsNonContracting := [0]
  rhsNonContracting := [1]
  lhsBatch := []
  rhsBatch := []
  wf := dot_S8000x16_S16x3_S8000x3_1_0_0_1_n_n_wf

abbrev win0_0 : Pipeline.Window sig grid0 :=
  Pipeline.Window.ofSpec (Memref.whole main_arg0) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S96x3 : Shape := ⟨2, ![96, 3]⟩
abbrev S_ : Shape := ⟨0, ![]⟩
abbrev S1000000x1 : Shape := ⟨2, ![1000000, 1]⟩
abbrev S1000000x4 : Shape := ⟨2, ![1000000, 4]⟩
abbrev S1000000x4x1 : Shape := ⟨3, ![1000000, 4, 1]⟩
abbrev S1000000x1x4 : Shape := ⟨3, ![1000000, 1, 4]⟩
abbrev S1000000x4x4 : Shape := ⟨3, ![1000000, 4, 4]⟩
abbrev S1000000x16 : Shape := ⟨2, ![1000000, 16]⟩
abbrev S1x1000000x1x16 : Shape := ⟨4, ![1, 1000000, 1, 16]⟩
abbrev S1x1000000x6x16 : Shape := ⟨4, ![1, 1000000, 6, 16]⟩
abbrev S1000000x96 : Shape := ⟨2, ![1000000, 96]⟩

abbrev nBuf : Space → Nat
  | .hbm => 15
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S96x3, .f32⟩
  | .hbm, ⟨2, _⟩ => ⟨S_, .f32⟩
  | .hbm, ⟨3, _⟩ => ⟨S1000000x1, .f32⟩
  | .hbm, ⟨4, _⟩ => ⟨S1000000x4, .f32⟩
  | .hbm, ⟨5, _⟩ => ⟨S1000000x4x1, .f32⟩
  | .hbm, ⟨6, _⟩ => ⟨S1000000x1x4, .f32⟩
  | .hbm, ⟨7, _⟩ => ⟨S1000000x4x4, .f32⟩
  | .hbm, ⟨8, _⟩ => ⟨S1000000x4x4, .f32⟩
  | .hbm, ⟨9, _⟩ => ⟨S1000000x4x4, .f32⟩
  | .hbm, ⟨10, _⟩ => ⟨S1000000x16, .f32⟩
  | .hbm, ⟨11, _⟩ => ⟨S1x1000000x1x16, .f32⟩
  | .hbm, ⟨12, _⟩ => ⟨S1x1000000x6x16, .f32⟩
  | .hbm, ⟨13, _⟩ => ⟨S1000000x96, .f32⟩
  | .hbm, ⟨14, _⟩ => ⟨S1000000x3, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S_S1000000x1 : S_.BroadcastsInDim S1000000x1 (![] : Fin 0 → Fin S1000000x1.rank)
  concatenates_S1000000x3_S1000000x1_S1000000x4_d1 : Shape.Concatenates [S1000000x3, S1000000x1] S1000000x4 1
  bcast_S1000000x4_S1000000x4x1_0_1 : S1000000x4.BroadcastsInDim S1000000x4x1 (![0, 1] : Fin 2 → Fin S1000000x4x1.rank)
  bcast_S1000000x4_S1000000x1x4_0_2 : S1000000x4.BroadcastsInDim S1000000x1x4 (![0, 2] : Fin 2 → Fin S1000000x1x4.rank)
  bcast_S1000000x4x1_S1000000x4x4_0_1_2 : S1000000x4x1.BroadcastsInDim S1000000x4x4 (![0, 1, 2] : Fin 3 → Fin S1000000x4x4.rank)
  bcast_S1000000x1x4_S1000000x4x4_0_1_2 : S1000000x1x4.BroadcastsInDim S1000000x4x4 (![0, 1, 2] : Fin 3 → Fin S1000000x4x4.rank)
  shapeCasts_S1000000x4x4_S1000000x16 : S1000000x4x4.ShapeCasts S1000000x16
  shapeCasts_S1000000x16_S1x1000000x1x16 : S1000000x16.ShapeCasts S1x1000000x1x16
  bcast_S1x1000000x1x16_S1x1000000x6x16_0_1_2_3 : S1x1000000x1x16.BroadcastsInDim S1x1000000x6x16 (![0, 1, 2, 3] : Fin 4 → Fin S1x1000000x6x16.rank)
  shapeCasts_S1x1000000x6x16_S1000000x96 : S1x1000000x6x16.ShapeCasts S1000000x96
  dot_S1000000x96_S96x3_S1000000x3_1_0_0_1_n_n_wf : DotDims.WF S1000000x96 S96x3 S1000000x3 [1] [0] [0] [1] [] []

variable [Facts₀]

def dot_S1000000x96_S96x3_S1000000x3_1_0_0_1_n_n : DotDims S1000000x96 S96x3 S1000000x3 where
  lhsContracting := [1]
  rhsContracting := [0]
  lhsNonContracting := [0]
  rhsNonContracting := [1]
  lhsBatch := []
  rhsBatch := []
  wf := dot_S1000000x96_S96x3_S1000000x3_1_0_0_1_n_n_wf

class Facts : Prop extends Facts₀ where

variable [Facts]
-- ==== Proof.TileLaw.lean ====
/-
  The mathematics of this certificate, with no program in sight.

  A row `(x₀, x₁, x₂)` of the first argument is extended by a one to `z = (x₀, x₁, x₂, 1)`; its sixteen
  FEATURES are the products `z_j · z_k`, feature `4 j + k` the product of entries `j` and `k`. The result at row `n`,
  column `c` is the product of the features, REPEATED six times along the contracted axis, with the 96 rows of the
  second argument: `∑ k < 96, feat (k mod 16) · a (k, c)`.

  One program contracts over all 96 positions; the other first adds up the six row blocks of the second argument,
  `a' (l, c) = 0 + ∑ r < 6, a (16 r + l, c)`, and contracts over sixteen. The two agree by distributivity,
  `f · (a₀ + … + a₅) = f · a₀ + … + f · a₅`, a law of the reals that FAILS on the extended reals at the infinities
  (`⊤ · (1 + (-1)) = 0` but `⊤ · 1 + ⊤ · (-1) = ⊥`): it is proved here for entries that are real numbers,
  which is what the precondition gives.
-/
import Idealize.ShloMosaic.PureOps.Ideal
import Idealize.ShloMosaic.Lib.ValueIdx

noncomputable section

open scoped BigOperators

namespace Cert.PolyFeat

open Idealize.ShloMosaic Idealize.ShloMosaic.ValueIdx

/-! ## Finite extended reals -/

/-- An extended real that is a real number. -/
def Fin' (x : EReal) : Prop := x ≠ ⊤ ∧ x ≠ ⊥

theorem Fin'.coe (r : ℝ) : Fin' (r : EReal) := ⟨EReal.coe_ne_top r, EReal.coe_ne_bot r⟩

theorem Fin'.one : Fin' (1 : EReal) := by
  have h := Fin'.coe 1
  rwa [EReal.coe_one] at h

/-- A product of two real numbers is a real number. -/
theorem Fin'.mul {x y : EReal} (hx : Fin' x) (hy : Fin' y) : Fin' (x * y) := by
  lift x to ℝ using hx
  lift y to ℝ using hy
  rw [← EReal.coe_mul]
  exact Fin'.coe _

/-- The coercion of the reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Six blocks of sixteen -/

/-- Position `k < 96` of the contracted axis is position `l = k mod 16` of block `r = k / 16`: `k = 16 r + l`. -/
def tile : Fin 6 × Fin 16 ≃ Fin 96 where
  toFun p := ⟨16 * p.1.val + p.2.val, by have := p.1.isLt; have := p.2.isLt; omega⟩
  invFun k := (⟨k.val / 16, by have := k.isLt; omega⟩, ⟨k.val % 16, Nat.mod_lt _ (by decide)⟩)
  left_inv p := by
    obtain ⟨⟨r, hr⟩, ⟨l, hl⟩⟩ := p
    refine Prod.ext (Fin.ext ?_) (Fin.ext ?_)
    · show (16 * r + l) / 16 = r; omega
    · show (16 * r + l) % 16 = l; omega
  right_inv k := by
    apply Fin.ext
    show 16 * (k.val / 16) + k.val % 16 = k.val
    omega

theorem tile_val (r : Fin 6) (l : Fin 16) : (tile (r, l)).val = 16 * r.val + l.val := rfl
theorem tile_symm_snd_val (k : Fin 96) : (tile.symm k).2.val = k.val % 16 := rfl

/-- Over the reals: contracting sixteen features with the SUM of the six row blocks is contracting the six-fold
    repeated features with all 96 rows (distributivity, then the two sums exchanged and re-indexed by `k = 16 r + l`). -/
theorem fold_blocks_real (f : Fin 16 → ℝ) (a : Fin 96 → ℝ) :
    ∑ l : Fin 16, f l * ∑ r : Fin 6, a (tile (r, l)) = ∑ k : Fin 96, f (tile.symm k).2 * a k := by
  rw [← Equiv.sum_comp tile (fun k => f (tile.symm k).2 * a k), Fintype.sum_prod_type, Finset.sum_comm]
  refine Finset.sum_congr rfl fun l _ => ?_
  rw [Finset.mul_sum]
  refine Finset.sum_congr rfl fun r _ => ?_
  rw [Equiv.symm_apply_apply]

/-- The same on the extended reals, for features and rows that are real numbers; the block sum starts from `0`, as
    a sum with an initial value does. -/
theorem fold_blocks (f : Fin 16 → EReal) (a : Fin 96 → EReal) (hf : ∀ l, Fin' (f l)) (ha : ∀ k, Fin' (a k)) :
    ∑ l : Fin 16, f l * ((0 : EReal) + ∑ r : Fin 6, a (tile (r, l))) = ∑ k : Fin 96, f (tile.symm k).2 * a k := by
  lift f to Fin 16 → ℝ using hf
  lift a to Fin 96 → ℝ using ha
  simp only [zero_add, ← coe_sum, ← EReal.coe_mul]
  exact congrArg _ (fold_blocks_real f a)

/-! ## The specification -/

/-- Entry `j` of the extended row `(x₀, x₁, x₂, 1)` at row `n`. -/
def aug (X : (⟨2, ![1000000, 3]⟩ : Shape).Idx → EReal) (n : Fin 1000000) (j : Fin 4) : EReal :=
  if h : j.val < 3 then X (ix2 n ⟨j.val, h⟩) else 1

/-- Feature `l = 4 j + k` of row `n`: the product of entries `j` and `k` of the extended row. -/
def feat (X : (⟨2, ![1000000, 3]⟩ : Shape).Idx → EReal) (n : Fin 1000000) (l : Fin 16) : EReal :=
  aug X n ⟨l.val / 4, by have := l.isLt; omega⟩ * aug X n ⟨l.val % 4, Nat.mod_lt _ (by decide)⟩

/-- THE RESULT as one function of the two argument arrays: at `(n, c)` the six-fold repeated features of row `n`
    contracted with column `c` of the second argument. -/
def G (X : (⟨2, ![1000000, 3]⟩ : Shape).Idx → EReal) (A : (⟨2, ![96, 3]⟩ : Shape).Idx → EReal) :
    (⟨2, ![1000000, 3]⟩ : Shape).Idx → EReal :=
  fun i => ∑ k : Fin 96, feat X (i 0) (tile.symm k).2 * A (ix2 k (i 1))

theorem aug_fin {X : (⟨2, ![1000000, 3]⟩ : Shape).Idx → EReal} (hX : ∀ i, Fin' (X i)) (n : Fin 1000000) (j : Fin 4) :
    Fin' (aug X n j) := by
  unfold aug
  split
  · exact hX _
  · exact Fin'.one

theorem feat_fin {X : (⟨2, ![1000000, 3]⟩ : Shape).Idx → EReal} (hX : ∀ i, Fin' (X i)) (n : Fin 1000000) (l : Fin 16) :
    Fin' (feat X n l) :=
  (aug_fin hX n _).mul (aug_fin hX n _)

/-- The sixteen-term form equals `G`: for real entries, the features of row `n` contracted with the block sums of
    column `c` are `G` at `(n, c)`. -/
theorem G_eq_folded (X : (⟨2, ![1000000, 3]⟩ : Shape).Idx → EReal) (A : (⟨2, ![96, 3]⟩ : Shape).Idx → EReal)
    (hX : ∀ i, Fin' (X i)) (hA : ∀ i, Fin' (A i)) (n : Fin 1000000) (c : Fin 3) :
    ∑ l : Fin 16, feat X n l * ((0 : EReal) + ∑ r : Fin 6, A (ix2 (tile (r, l)) c)) = G X A (ix2 n c) :=
  fold_blocks (feat X n) (fun k => A (ix2 k c)) (feat_fin hX n) (fun k => hA _)

end Cert.PolyFeat

end
-- ==== Proof.Finite.lean ====
/-
  From the precondition to real entries. The precondition says that the conjunction, over every entry of both
  argument arrays, of the comparisons `|x| < +∞` is true. A conjunction that is true has every conjunct true; and an
  extended real whose absolute value `max x (-x)` lies strictly below `⊤` is neither `⊤` nor `⊥`: it is a real number.
-/
import proofs.«117578_j4303557230990_1_alg».proof.Pre_finite_inputs
import proofs.«117578_j4303557230990_1_alg».proof.Proof.TileLaw
import Idealize.ShloMosaic.Lib.ReduceAll

noncomputable section

namespace Cert.PolyFeat

open Idealize.ShloMosaic Idealize.ShloMosaic.ValueIdx

/-- The pattern the precondition compares against denotes `+∞`. -/
theorem ofBits_inf : Ideal.ofBits .f32 0x7F800000#32 = ⊤ := by simp [Ideal.ofBits, Ideal.ieee]

/-- An extended real with `|x| < ⊤` is a real number. -/
theorem fin_of_abs_lt_top (x : EReal) (h : Ideal.cmp .olt (max x (-x)) ⊤ = 1#1) : Fin' x := by
  induction x using EReal.rec with
  | bot => simp [Ideal.cmp] at h
  | top => simp [Ideal.cmp] at h
  | coe r => exact Fin'.coe r

instance : Subsingleton Cert.Pre_finite_inputs.S_.Idx := ⟨fun a b => funext fun d => d.elim0⟩

/-- Under the precondition every entry of both argument arrays is a real number. -/
theorem finite_of_pre [Cert.Pre_finite_inputs.Facts] (X : FVec Ideal Cert.Pre_finite_inputs.S1000000x3 .f32)
    (A : FVec Ideal Cert.Pre_finite_inputs.S96x3 .f32)
    (h : Cert.Pre_finite_inputs.fn (F := Ideal) X A = fun _ => 1#1) : (∀ i, Fin' (X i)) ∧ ∀ i, Fin' (A i) := by
  have h0 := congrFun h ix0
  dsimp only [Cert.Pre_finite_inputs.fn] at h0
  obtain ⟨h1, h2⟩ := IntOp.andi_eq_one.1 h0
  refine ⟨fun i => ?_, fun i => ?_⟩
  · have e := Host.reduce_andi_all _ _ _ _ _ h1 i
    refine fin_of_abs_lt_top (X i) ?_
    rw [← ofBits_inf]
    exact e
  · have e := Host.reduce_andi_all _ _ _ _ _ h2 i
    refine fin_of_abs_lt_top (A i) ?_
    rw [← ofBits_inf]
    exact e

end Cert.PolyFeat

end
-- ==== Proof.RefValue.lean ====
/-
  The reference computes `G`. Read one operation at a time, its result at `(n, c)` is the sum over the 96 contracted
  positions `k` of the repeated feature array at `(n, k)` times the second argument at `(k, c)`; the repeated feature
  array at `(n, k)` is, through two reshapes and a broadcast over the six copies, the outer product of the extended row
  with itself at `(n, (k mod 16) / 4, (k mod 16) mod 4)`; and the extended row is the first argument with a column of
  ones joined on.
-/
import proofs.«117578_j4303557230990_1_alg».proof.Proof.Gen.ReferenceIdeal.Read
import proofs.«117578_j4303557230990_1_alg».proof.Proof.TileLaw
import Idealize.ShloMosaic.PureOps.IdealRules

noncomputable section

namespace Cert.PolyFeat.Ref

open Cert.ReferenceIdeal Cert.ReferenceIdeal.Gen Cert.ReferenceIdeal.Read Cert.PolyFeat
open Idealize.ShloMosaic Idealize.ShloMosaic.ValueIdx

/-- The pattern of the joined column denotes the real number one. -/
theorem one_f32 : Ideal.ofBits .f32 0x3F800000#32 = 1 := IdealRules.sign_bit.ideal_onePat .f32

/-- The extended row: columns 0 to 2 are the first argument's, column 3 is one. -/
theorem row_apply (X : (⟨S1000000x3, .f32⟩ : BufTy).Contents (Elt Ideal)) (n : Fin 1000000) (j : Fin 4) :
    val_main_v1 (F := Ideal) X (ix2 n j) = aug X n j := by
  unfold val_main_v1 aug
  by_cases h : j.val < 3
  · rw [dif_pos h]
    exact concatenate_pair_apply_left (1 : Fin 2) X _ concatenates_S1000000x3_S1000000x1_S1000000x4_d1 (ix2 n j) rfl
      (ix2 n ⟨j.val, h⟩) (fun b => by match b with | ⟨0, _⟩ => rfl | ⟨1, _⟩ => rfl)
  · rw [dif_neg h]
    have hj : j.val = 3 := by have := j.isLt; omega
    refine (concatenate_pair_apply_right (s₂ := S1000000x1) (1 : Fin 2) X (val_main_v0 (F := Ideal))
      concatenates_S1000000x3_S1000000x1_S1000000x4_d1 (ix2 n j) rfl rfl
      (ix2 n (0 : Fin 1)) (fun b hb => by match b with | ⟨0, _⟩ => rfl | ⟨1, _⟩ => exact absurd rfl hb) ?_).trans ?_
    · show 0 + 3 = j.val
      omega
    · rw [val_main_v0_apply, val_main_cst_apply]
      exact one_f32

/-- The repeated feature array at `(n, k)` is feature `k mod 16` of row `n`: position `k` of the 96 is position
    `k mod 16` of copy `k / 16`, and position `l` of the sixteen is the pair `(l / 4, l mod 4)`. -/
theorem feats_apply (X : (⟨S1000000x3, .f32⟩ : BufTy).Contents (Elt Ideal)) (i : S1000000x96.Idx) :
    val_main_v10 (F := Ideal) X i = feat X (i 0) (tile.symm (i 1)).2 := by
  have h0 : (i 0).val < 1000000 := (i 0).isLt
  have h1 : (i 1).val < 96 := (i 1).isLt
  rw [val_main_v10_apply, val_main_v9_apply, val_main_v8_apply, val_main_v7_apply, val_main_v6_apply,
    val_main_v4_apply, val_main_v2_apply, val_main_v5_apply, val_main_v3_apply]
  have e1 : idx_main_v2 (idx_main_v4 (idx_main_v7 (idx_main_v8 (idx_main_v9 (idx_main_v10 i)))))
      = ix2 (⟨(i 0).val, h0⟩ : Fin 1000000) (⟨(i 1).val % 16 / 4, by omega⟩ : Fin 4) := funext fun a => Fin.ext (by
    match a with
    | ⟨0, _⟩ => dsimp only [idx_main_v2, idx_main_v4, idx_main_v7, idx_main_v8, idx_main_v9, idx_main_v10, ix2]; omega
    | ⟨1, _⟩ => dsimp only [idx_main_v2, idx_main_v4, idx_main_v7, idx_main_v8, idx_main_v9, idx_main_v10, ix2]; omega)
  have e2 : idx_main_v3 (idx_main_v5 (idx_main_v7 (idx_main_v8 (idx_main_v9 (idx_main_v10 i)))))
      = ix2 (⟨(i 0).val, h0⟩ : Fin 1000000) (⟨(i 1).val % 16 % 4, Nat.mod_lt _ (by decide)⟩ : Fin 4) := funext fun a => Fin.ext (by
    match a with
    | ⟨0, _⟩ => dsimp only [idx_main_v3, idx_main_v5, idx_main_v7, idx_main_v8, idx_main_v9, idx_main_v10, ix2]; omega
    | ⟨1, _⟩ => dsimp only [idx_main_v3, idx_main_v5, idx_main_v7, idx_main_v8, idx_main_v9, idx_main_v10, ix2]; omega)
  rw [e1, e2, row_apply, row_apply]
  rfl

/-- THE REFERENCE'S RESULT, as the last stage of its run states it, is `G` of the two arguments. -/
theorem result_eq (X : (⟨S1000000x3, .f32⟩ : BufTy).Contents (Elt Ideal)) (A : (⟨S96x3, .f32⟩ : BufTy).Contents (Elt Ideal)) :
    val_main_v11 (F := Ideal) X A = G X A := by
  funext i
  rw [val_main_v11_apply]
  unfold G
  refine Finset.sum_congr rfl fun k _ => ?_
  rw [feats_apply]
  have er : ridx_main_v11 i k = ix2 k (i 1) := funext fun a => by match a with | ⟨0, _⟩ => rfl | ⟨1, _⟩ => rfl
  rw [er]
  rfl

end Cert.PolyFeat.Ref

end
-- ==== Proof.Payload.lean ====
/-
  The kernel body's arithmetic at one entry of its block. The body loads a block `x` of 8000 rows of the first
  argument and the whole [16, 3] second operand `w`; it joins a column of ones onto `x`, multiplies the extended
  block by each of its four columns broadcast along the rows, joins the four products side by side into the
  [8000, 16] feature block — feature `4 j + k` of a row is entry `j` times entry `k` of its extended row — and
  multiplies the feature block into `w` from a zero accumulator. So at row `p`, column `q` the stored value is
  `∑ l < 16, (z (p, l / 4) · z (p, l mod 4)) · w (l, q)`, `z` the extended block.
-/
import proofs.«117578_j4303557230990_1_alg».proof.Proof.Gen.KernelIdeal.Skeleton
import proofs.«117578_j4303557230990_1_alg».proof.Proof.TileLaw
import Idealize.ShloMosaic.Lib.Pipeline.Value
import Idealize.ShloMosaic.PureOps.Ideal.Laws
import Idealize.ShloMosaic.PureOps.IdealRules

noncomputable section

namespace Cert.PolyFeat.Ker

open Cert.KernelIdeal Cert.KernelIdeal.Gen Cert.PolyFeat
open Idealize.ShloMosaic Idealize.ShloMosaic.ValueIdx

/-- The sixteen-bit pattern of the joined column denotes the real number one. -/
theorem one_bf16 : Ideal.ofBits .bf16 0x3F80#16 = 1 := IdealRules.sign_bit.ideal_onePat .bf16

/-- Entry `j` of row `p` of a block extended by a column of ones. -/
def augBlk (x : S8000x3.Idx → EReal) (p : Fin 8000) (j : Fin 4) : EReal :=
  if h : j.val < 3 then x (ix2 p ⟨j.val, h⟩) else 1

/-- The block with the column of ones joined on, read at `(p, j)`. -/
theorem joined_apply (x : FVec Ideal S8000x3 .bf16) (p : Fin 8000) (j : Fin 4) :
    concatenate S8000x4 1 [⟨S8000x3, x⟩, ⟨S8000x1, broadcast S8000x1 (Scalar.ofBits (F := Ideal) .bf16 0x3F80#16)⟩]
      concatenates_S8000x3_S8000x1_S8000x4_d1 (ix2 p j) = augBlk x p j := by
  unfold augBlk
  by_cases h : j.val < 3
  · rw [dif_pos h]
    exact concatenate_pair_apply_left (1 : Fin 2) x _ concatenates_S8000x3_S8000x1_S8000x4_d1 (ix2 p j) rfl
      (ix2 p ⟨j.val, h⟩) (fun b => by match b with | ⟨0, _⟩ => rfl | ⟨1, _⟩ => rfl)
  · rw [dif_neg h]
    have hj : j.val = 3 := by have := j.isLt; omega
    refine (concatenate_pair_apply_right (s₂ := S8000x1) (1 : Fin 2) x
      (broadcast S8000x1 (Scalar.ofBits (F := Ideal) .bf16 0x3F80#16))
      concatenates_S8000x3_S8000x1_S8000x4_d1 (ix2 p j) rfl rfl
      (ix2 p (0 : Fin 1)) (fun b hb => by match b with | ⟨0, _⟩ => rfl | ⟨1, _⟩ => exact absurd rfl hb) ?_).trans ?_
    · show 0 + 3 = j.val
      omega
    · exact one_bf16

/-- The extended block times its column `o` broadcast along the rows, read at `(p, k)`: entry `o` times entry `k`
    of row `p`. -/
theorem col_mul_apply (o : Nat) (ho : o < 4) (hs : S8000x4.Slices ![0, o] S8000x1) (hb : S8000x1.Broadcasts S8000x4)
    (z : FVec Ideal S8000x4 .bf16) (p : Fin 8000) (k : Fin 4) :
    mulf (broadcastTo S8000x4 (extractStridedSlice S8000x1 ![0, o] z hs) hb) z (ix2 p k)
      = z (ix2 p (⟨o, ho⟩ : Fin 4)) * z (ix2 p k) := by
  rw [mulf_apply]
  refine congrArg (· * z (ix2 p k)) ?_
  refine (broadcastTo_apply _ hb (ix2 p k) (ix2 p (0 : Fin 1)) (fun a => ?_)).trans
    (extractStridedSlice_apply _ z hs (ix2 p (0 : Fin 1)) (ix2 p (⟨o, ho⟩ : Fin 4)) (fun a => ?_))
  · match a with
    | ⟨0, _⟩ => show p.val = if (8000 : Nat) = 1 then 0 else p.val; rw [if_neg (by decide)]
    | ⟨1, _⟩ => show 0 = if (1 : Nat) = 1 then 0 else k.val; rw [if_pos rfl]
  · match a with
    | ⟨0, _⟩ => show p.val = 0 + p.val; omega
    | ⟨1, _⟩ => show o = o + 0; rfl

/-- The four products, in order: the extended block times its column `j` broadcast along the rows, `j = 0 … 3`. -/
abbrev products (z : FVec Ideal S8000x4 .bf16) : List ((s : Shape) × (s.Idx → Ideal .bf16)) :=
  [⟨S8000x4, mulf (broadcastTo S8000x4 (extractStridedSlice S8000x1 ![0, 0] z slices_S8000x4_o0_0_S8000x1) broadcasts_S8000x1_S8000x4) z⟩,
   ⟨S8000x4, mulf (broadcastTo S8000x4 (extractStridedSlice S8000x1 ![0, 1] z slices_S8000x4_o0_1_S8000x1) broadcasts_S8000x1_S8000x4) z⟩,
   ⟨S8000x4, mulf (broadcastTo S8000x4 (extractStridedSlice S8000x1 ![0, 2] z slices_S8000x4_o0_2_S8000x1) broadcasts_S8000x1_S8000x4) z⟩,
   ⟨S8000x4, mulf (broadcastTo S8000x4 (extractStridedSlice S8000x1 ![0, 3] z slices_S8000x4_o0_3_S8000x1) broadcasts_S8000x1_S8000x4) z⟩]

/-- The feature block — the four products joined side by side — read at `(p, l)`: piece `l / 4` at column
    `l mod 4`, that is entry `l / 4` times entry `l mod 4` of row `p` of the extended block. -/
theorem feats_apply (z : FVec Ideal S8000x4 .bf16) (p : Fin 8000) (l : Fin 16) :
    concatenate S8000x16 1 (products z) concatenates_S8000x4_S8000x4_S8000x4_S8000x4_S8000x16_d1 (ix2 p l)
      = z (ix2 p (⟨l.val / 4, by have := l.isLt; omega⟩ : Fin 4)) * z (ix2 p (⟨l.val % 4, Nat.mod_lt _ (by decide)⟩ : Fin 4)) := by
  have hl := l.isLt
  have hoff : ∀ b : Fin S8000x4.rank, b.cast (rfl : S8000x4.rank = S8000x16.rank) ≠ (1 : Fin 2) →
      ((ix2 p (⟨l.val % 4, Nat.mod_lt _ (by decide)⟩ : Fin 4) : S8000x4.Idx) b).val = ((ix2 p l : S8000x16.Idx) (b.cast rfl)).val :=
    fun b hb => by match b with | ⟨0, _⟩ => rfl | ⟨1, _⟩ => exact absurd rfl hb
  have hq : l.val / 4 = 0 ∨ l.val / 4 = 1 ∨ l.val / 4 = 2 ∨ l.val / 4 = 3 := by omega
  rcases hq with hq | hq | hq | hq
  · refine (concatenate_apply_piece (t := S8000x16) (1 : Fin 2) (products z) concatenates_S8000x4_S8000x4_S8000x4_S8000x4_S8000x16_d1 (ix2 p l)
      0 (by show 0 < 4; omega) S8000x4 _ rfl rfl 0 rfl (ix2 p (⟨l.val % 4, Nat.mod_lt _ (by decide)⟩ : Fin 4)) hoff
      (by show 0 + l.val % 4 = l.val; omega)).trans ?_
    rw [col_mul_apply 0 (by decide)]
    exact congrArg (fun j : Fin 4 => z (ix2 p j) * _) (Fin.ext hq.symm)
  · refine (concatenate_apply_piece (t := S8000x16) (1 : Fin 2) (products z) concatenates_S8000x4_S8000x4_S8000x4_S8000x4_S8000x16_d1 (ix2 p l)
      1 (by show 1 < 4; omega) S8000x4 _ rfl rfl 4 rfl (ix2 p (⟨l.val % 4, Nat.mod_lt _ (by decide)⟩ : Fin 4)) hoff
      (by show 4 + l.val % 4 = l.val; omega)).trans ?_
    rw [col_mul_apply 1 (by decide)]
    exact congrArg (fun j : Fin 4 => z (ix2 p j) * _) (Fin.ext hq.symm)
  · refine (concatenate_apply_piece (t := S8000x16) (1 : Fin 2) (products z) concatenates_S8000x4_S8000x4_S8000x4_S8000x4_S8000x16_d1 (ix2 p l)
      2 (by show 2 < 4; omega) S8000x4 _ rfl rfl 8 rfl (ix2 p (⟨l.val % 4, Nat.mod_lt _ (by decide)⟩ : Fin 4)) hoff
      (by show 8 + l.val % 4 = l.val; omega)).trans ?_
    rw [col_mul_apply 2 (by decide)]
    exact congrArg (fun j : Fin 4 => z (ix2 p j) * _) (Fin.ext hq.symm)
  · refine (concatenate_apply_piece (t := S8000x16) (1 : Fin 2) (products z) concatenates_S8000x4_S8000x4_S8000x4_S8000x4_S8000x16_d1 (ix2 p l)
      3 (by show 3 < 4; omega) S8000x4 _ rfl rfl 12 rfl (ix2 p (⟨l.val % 4, Nat.mod_lt _ (by decide)⟩ : Fin 4)) hoff
      (by show 12 + l.val % 4 = l.val; omega)).trans ?_
    rw [col_mul_apply 3 (by decide)]
    exact congrArg (fun j : Fin 4 => z (ix2 p j) * _) (Fin.ext hq.symm)

/-! ## The matrix product at an entry -/

theorem lhs_0 (i : S8000x3.Idx) (q : dot_S8000x16_S16x3_S8000x3_1_0_0_1_n_n.contr.Idx) : (dot_S8000x16_S16x3_S8000x3_1_0_0_1_n_n.lhsIdx i q 0).val = (i 0).val := by
  unfold DotDims.lhsIdx
  rw [dif_neg (show ¬(0 : Fin S8000x16.rank) ∈ dot_S8000x16_S16x3_S8000x3_1_0_0_1_n_n.lhsBatch by decide), dif_pos (show (0 : Fin S8000x16.rank) ∈ dot_S8000x16_S16x3_S8000x3_1_0_0_1_n_n.lhsNonContracting by decide)]
  rfl
theorem lhs_1 (i : S8000x3.Idx) (q : dot_S8000x16_S16x3_S8000x3_1_0_0_1_n_n.contr.Idx) : (dot_S8000x16_S16x3_S8000x3_1_0_0_1_n_n.lhsIdx i q 1).val = (q ⟨0, by decide⟩).val :=
  dot_S8000x16_S16x3_S8000x3_1_0_0_1_n_n.lhsIdx_val_of_single rfl i q
theorem rhs_0 (i : S8000x3.Idx) (q : dot_S8000x16_S16x3_S8000x3_1_0_0_1_n_n.contr.Idx) : (dot_S8000x16_S16x3_S8000x3_1_0_0_1_n_n.rhsIdx i q 0).val = (q ⟨0, by decide⟩).val :=
  dot_S8000x16_S16x3_S8000x3_1_0_0_1_n_n.rhsIdx_val_of_single rfl i q
theorem rhs_1 (i : S8000x3.Idx) (q : dot_S8000x16_S16x3_S8000x3_1_0_0_1_n_n.contr.Idx) : (dot_S8000x16_S16x3_S8000x3_1_0_0_1_n_n.rhsIdx i q 1).val = (i 1).val := by
  unfold DotDims.rhsIdx
  rw [dif_neg (show ¬(1 : Fin S16x3.rank) ∈ dot_S8000x16_S16x3_S8000x3_1_0_0_1_n_n.rhsBatch by decide), dif_pos (show (1 : Fin S16x3.rank) ∈ dot_S8000x16_S16x3_S8000x3_1_0_0_1_n_n.rhsNonContracting by decide)]
  rfl

/-- The [8000, 16] by [16, 3] product from a zero accumulator, at `(p, q)`: the sum over the sixteen contracted
    positions of the left operand at `(p, l)` times the right at `(l, q)`. -/
theorem product_apply (L : FVec Ideal S8000x16 .bf16) (R : FVec Ideal S16x3 .bf16) (p : Fin 8000) (q : Fin 3) :
    matmul dot_S8000x16_S16x3_S8000x3_1_0_0_1_n_n none L R (constant (F := Ideal) S8000x3 .f32 0x00000000#32) (ix2 p q) = ∑ l : Fin 16, L (ix2 p l) * R (ix2 l q) := by
  simp only [matmul]
  rw [Ideal.matmul_constant_zero_apply, ← Equiv.sum_comp (contrEquiv1 dot_S8000x16_S16x3_S8000x3_1_0_0_1_n_n 16 rfl rfl).symm]
  refine Finset.sum_congr rfl fun l _ => ?_
  have hl := contrEquiv1_symm_val dot_S8000x16_S16x3_S8000x3_1_0_0_1_n_n 16 rfl rfl l
  have el : dot_S8000x16_S16x3_S8000x3_1_0_0_1_n_n.lhsIdx (ix2 p q) ((contrEquiv1 dot_S8000x16_S16x3_S8000x3_1_0_0_1_n_n 16 rfl rfl).symm l) = ix2 p l := funext fun a => Fin.ext (by
    match a with
    | ⟨0, _⟩ => exact lhs_0 _ _
    | ⟨1, _⟩ => exact (lhs_1 _ _).trans hl)
  have er : dot_S8000x16_S16x3_S8000x3_1_0_0_1_n_n.rhsIdx (ix2 p q) ((contrEquiv1 dot_S8000x16_S16x3_S8000x3_1_0_0_1_n_n 16 rfl rfl).symm l) = ix2 l q := funext fun a => Fin.ext (by
    match a with
    | ⟨0, _⟩ => exact (rhs_0 _ _).trans hl
    | ⟨1, _⟩ => exact rhs_1 _ _)
  rw [el, er]

/-! ## The payload -/

/-- THE STORED VALUE at row `p`, column `q` of the block: the sixteen features of row `p` of the loaded block
    contracted with column `q` of the loaded [16, 3] operand. -/
theorem payload_apply (x : Vec Ideal S8000x3 .f32) (w : Vec Ideal S16x3 .f32) (p : Fin 8000) (q : Fin 3) :
    k0_pay1 (F := Ideal) x w (ix2 p q)
      = ∑ l : Fin 16, (augBlk x p (⟨l.val / 4, by have := l.isLt; omega⟩ : Fin 4) * augBlk x p (⟨l.val % 4, Nat.mod_lt _ (by decide)⟩ : Fin 4))
          * w (ix2 l q) := by
  unfold k0_pay1
  refine (product_apply _ _ p q).trans (Finset.sum_congr rfl fun l _ => ?_)
  refine congrArg₂ (· * ·) ?_ ?_
  · refine (feats_apply _ p l).trans ?_
    rw [joined_apply, joined_apply]
    rfl
  · show shapeCast S16x3 w shapeCasts_S16x3_S16x3 (ix2 l q) = w (ix2 l q)
    rw [shapeCast_self]

end Cert.PolyFeat.Ker

end
-- ==== Proof.Blocks.lean ====
/-
  From the blocks to the array. The call runs the body at 125 grid points; point `t` stages rows
  `8000 t … 8000 t + 7999` of the first argument and, at every point, the whole [16, 3] second operand, and writes
  rows `8000 t … 8000 t + 7999` of the result back. The second operand is computed before the call: the second
  argument reshaped to six blocks of sixteen rows and the blocks added up from zero, so its entry `(l, q)` is
  `0 + ∑ r < 6, a (16 r + l, q)`. With the body's arithmetic at an entry and distributivity (for real entries),
  point `t` writes back block `t` of `G`; the 125 blocks cover the result array; so the array ends holding `G`.
-/
import proofs.«117578_j4303557230990_1_alg».proof.Proof.Gen.KernelIdeal.Value
import proofs.«117578_j4303557230990_1_alg».proof.Proof.Payload
import Idealize.ShloMosaic.Lib.StableHlo.Run

set_option maxRecDepth 16384

noncomputable section

namespace Cert.PolyFeat.Ker

open Cert.KernelIdeal Cert.KernelIdeal.Gen Cert.PolyFeat
open Idealize.ShloMosaic Idealize.ShloMosaic.ValueIdx Idealize.ShloMosaic.TcCoe Idealize.SL.Sem
open Idealize.ShloMosaic.Pipeline (Dat)

/-! ## The second operand: the six row blocks added up -/

/-- The reshaped second argument summed over its first axis from zero, at `(l, q)`: `0 + ∑ r < 6, a (16 r + l, q)`. -/
theorem blocksum_apply (A : FVec Ideal S96x3 .f32) (l : Fin 16) (q : Fin 3) :
    Host.reduceAdd (shapeCast S6x16x3 A shapeCasts_S96x3_S6x16x3) (constant (F := Ideal) S_ .f32 0x00000000#32)
      reducesTo_S6x16x3_S16x3_d0 h_S_ (ix2 l q) = (0 : EReal) + ∑ r : Fin 6, A (ix2 (tile (r, l)) q) := by
  show Ideal.hostReduceAdd reducesTo_S6x16x3_S16x3_d0 _ (Ideal.ofBits .f32 0x00000000#32) (ix2 l q) = _
  rw [Ideal.hostReduceAdd_single _ (by decide : S6x16x3.Reduces [0] S16x3), Ideal.ofBits_zero_f32]
  refine congrArg ((0 : EReal) + ·) (Finset.sum_congr rfl fun r _ => ?_)
  refine shapeCast_apply A shapeCasts_S96x3_S6x16x3 _ (ix2 (tile (r, l)) q) ?_
  rw [Shape.rowMajor_val_two, Shape.rowMajor_val_three]
  show (16 * r.val + l.val) * 3 + q.val = (r.val * 16 + l.val) * 3 + q.val
  omega

variable (m : (ℓ : Loc nD τ sig) → Buf (Elt Ideal) ℓ) (ρ : Dev nD → PrngReg)

/-- The second operand as the call finds it: the block sums of the second argument. -/
theorem operand_eq (c : Dev nD) : (V m c main_v1 : S16x3.Idx → EReal)
    = Host.reduceAdd (shapeCast S6x16x3 (m ((c : Thread nD τ).loc main_arg1)) shapeCasts_S96x3_S6x16x3)
        (constant (F := Ideal) S_ .f32 0x00000000#32) reducesTo_S6x16x3_S16x3_d0 h_S_ := by
  dsimp only [Gen.V, Gen.hostOps0]
  after_results
  rfl

/-! ## What one grid point writes back -/

theorem zero_offsets : (![0, 0] : Fin 2 → Nat) = fun _ => 0 := funext fun a => by fin_cases a <;> rfl

/-- The printed index maps, decided over the 125 grid points: point `t` stages block `t` of the first argument
    along the rows, the one block of the second operand, and writes back block `t` of the result along the rows. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- AT ONE POINT, with no window in sight: if the loaded block `x` is rows `8000 t …` of `X` and the loaded operand
    `w` holds the block sums of `A`, both with real entries, then the stored value at `y = (p, q)` is `G X A` at
    `(8000 t + p, q)` — the body's sixteen-term contraction is the 96-term one, by distributivity. -/
theorem point_eq (X : S1000000x3.Idx → EReal) (A : S96x3.Idx → EReal) (hX : ∀ i, Fin' (X i)) (hA : ∀ i, Fin' (A i))
    (x : Vec Ideal S8000x3 .f32) (w : Vec Ideal S16x3 .f32) (t : Nat) (ht : t < 125)
    (hx : ∀ (p : Fin 8000) (j : Fin 3), x (ix2 p j) = X (ix2 (⟨8000 * t + p.val, by have := p.isLt; omega⟩ : Fin 1000000) j))
    (hw : ∀ (l : Fin 16) (q : Fin 3), w (ix2 l q) = (0 : EReal) + ∑ r : Fin 6, A (ix2 (tile (r, l)) q))
    (y : S8000x3.Idx) (i : S1000000x3.Idx) (hi0 : (i 0).val = 8000 * t + (y 0).val) (hi1 : (i 1).val = (y 1).val) :
    k0_pay1 (F := Ideal) x w y = G X A i := by
  obtain ⟨p, q, rfl⟩ : ∃ (p : Fin 8000) (q : Fin 3), y = ix2 p q := ⟨y 0, y 1, eq_ix2 y⟩
  have hb : 8000 * t + p.val < 1000000 := by have := p.isLt; clear hi0 hi1; omega
  obtain rfl : i = ix2 (⟨8000 * t + p.val, hb⟩ : Fin 1000000) q := by
    rw [eq_ix2 i]
    exact congrArg₂ ix2 (Fin.ext hi0) (Fin.ext hi1)
  have haug : ∀ j : Fin 4, augBlk x p j = aug X (⟨8000 * t + p.val, hb⟩ : Fin 1000000) j := fun j => by
    unfold augBlk aug
    split
    · exact hx _ _
    · rfl
  rw [payload_apply, ← G_eq_folded X A hX hA]
  refine Finset.sum_congr rfl fun l _ => ?_
  rw [hw, haug, haug]
  rfl

variable {m} in
/-- WHAT POINT `t` WRITES BACK is block `t` of `G` of the two arguments, when their entries are real numbers. -/
theorem flushed_eq (c : Dev nD) (hX : ∀ i, Fin' (m ((c : Thread nD τ).loc main_arg0) i))
    (hA : ∀ i, Fin' (m ((c : Thread nD τ).loc main_arg1) i)) (t : Fin cfg0.N) :
    (dats m 0 c).flushed 2 t = ((cfg0.win 2).blk t).view.read (Elt Ideal)
      (G (m ((c : Thread nD τ).loc main_arg0)) (m ((c : Thread nD τ).loc main_arg1))) := by
  rw [Cert.KernelIdeal.Value.flushed2]
  unfold out0_2
  rw [View.canon_unit_zero zero_offsets]
  simp only [View.ld_unit_zero (S := S8000x3) zero_offsets, View.ld_unit_zero (S := S16x3) zero_offsets]
  obtain ⟨e00, e01, e10, e11, e20, e21⟩ := idx_facts t
  have hN : cfg0.N = 125 := N_0
  have ht := t.isLt
  funext y
  show k0_pay1 (F := Ideal) (iblk m c 0 t) (iblk m c 1 t) y
    = G (m ((c : Thread nD τ).loc main_arg0)) (m ((c : Thread nD τ).loc main_arg1)) (((cfg0.win 2).blk t).view.emb y)
  refine point_eq (m ((c : Thread nD τ).loc main_arg0)) (m ((c : Thread nD τ).loc main_arg1)) hX hA
    (iblk m c 0 t) (iblk m c 1 t) t.val (by omega) ?_ ?_ y (((cfg0.win 2).blk t).view.emb y) ?_ ?_
  · intro p j
    show V m c main_arg0 (((cfg0.win 0).blk t).view.emb (ix2 p j)) = _
    rw [V_main_arg0]
    refine congrArg _ (funext fun a => Fin.ext ?_)
    match a with
    | ⟨0, _⟩ => show win0_0.index t (0 : Fin 2) * 8000 + 1 * p.val = 8000 * t.val + p.val; omega
    | ⟨1, _⟩ => show win0_0.index t (1 : Fin 2) * 3 + 1 * j.val = j.val; omega
  · intro l q
    show V m c main_v1 (((cfg0.win 1).blk t).view.emb (ix2 l q)) = _
    rw [operand_eq, ← blocksum_apply]
    refine congrArg _ (funext fun a => Fin.ext ?_)
    match a with
    | ⟨0, _⟩ => show win0_1.index t (0 : Fin 2) * 16 + 1 * l.val = l.val; omega
    | ⟨1, _⟩ => show win0_1.index t (1 : Fin 2) * 3 + 1 * q.val = q.val; omega
  · show win0_2.index t (0 : Fin 2) * 8000 + 1 * (y 0).val = 8000 * t.val + (y 0).val
    omega
  · show win0_2.index t (1 : Fin 2) * 3 + 1 * (y 1).val = (y 1).val
    omega

/-! ## The blocks cover the array -/

/-- An index of the result array is in point `t`'s block iff each coordinate is in the block's range on its axis. -/
theorem mem_blk (t : Fin cfg0.N) (i : S1000000x3.Idx) :
    i ∈ ((cfg0.win 2).blk t).view.set ↔ ∀ a : Fin 2, win0_2.index t a * S8000x3.size a ≤ (i a).val
      ∧ (i a).val < win0_2.index t a * S8000x3.size a + S8000x3.size a := by
  show i ∈ ((View.whole main_v2).slice (win0_2.rect t)).set ↔ _
  rw [View.set_slice_whole, Rect.mem_set_unit]
  exact Iff.rfl

/-- Row `n` of the result is in the block of point `n / 8000`, which writes back. -/
theorem cover (i : S1000000x3.Idx) :
    ∃ t : Fin cfg0.N, (cfg0.win 2).flush t = true ∧ i ∈ ((cfg0.win 2).blk t).view.set := by
  have h0 : (i 0).val < 1000000 := (i 0).isLt
  have h1 : (i 1).val < 3 := (i 1).isLt
  have hN : cfg0.N = 125 := N_0
  have hlt : (i 0).val / 8000 < cfg0.N := by omega
  obtain ⟨-, -, -, -, e20, e21⟩ := idx_facts ⟨(i 0).val / 8000, hlt⟩
  have e20' : win0_2.index ⟨(i 0).val / 8000, hlt⟩ (0 : Fin 2) = (i 0).val / 8000 := e20
  refine ⟨⟨(i 0).val / 8000, hlt⟩, flush0_2 _, ?_⟩
  rw [mem_blk]
  intro a
  match a with
  | ⟨0, _⟩ =>
    show win0_2.index ⟨(i 0).val / 8000, hlt⟩ (0 : Fin 2) * 8000 ≤ (i 0).val
      ∧ (i 0).val < win0_2.index ⟨(i 0).val / 8000, hlt⟩ (0 : Fin 2) * 8000 + 8000
    omega
  | ⟨1, _⟩ =>
    show win0_2.index ⟨(i 0).val / 8000, hlt⟩ (1 : Fin 2) * 3 ≤ (i 1).val
      ∧ (i 1).val < win0_2.index ⟨(i 0).val / 8000, hlt⟩ (1 : Fin 2) * 3 + 3
    omega

/-! ## The array, and the run -/

variable {m} in
/-- THE RESULT ARRAY after the run is `G` of the two arguments, when their entries are real numbers. -/
theorem final (c : Dev nD) (hX : ∀ i, Fin' (m ((c : Thread nD τ).loc main_arg0) i))
    (hA : ∀ i, Fin' (m ((c : Thread nD τ).loc main_arg1) i)) :
    (dats m 0 c).arrAt 2 cfg0.N = G (m ((c : Thread nD τ).loc main_arg0)) (m ((c : Thread nD τ).loc main_arg1)) :=
  (dats m 0 c).arrAt_eq_of_cover 2 (G (m ((c : Thread nD τ).loc main_arg0)) (m ((c : Thread nD τ).loc main_arg1)))
    (fun t _ => flushed_eq c hX hA t) cover

variable {m} in
/-- THE KERNEL'S RUN: from a memory whose two arguments hold real numbers, every weakly fair execution ends with
    the result array at `G` of the arguments and the arguments unchanged. -/
theorem run (hfin : ∀ c : Dev nD, (∀ i, Fin' (m ((c : Thread nD τ).loc main_arg0) i))
      ∧ ∀ i, Fin' (m ((c : Thread nD τ).loc main_arg1) i)) :
    θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final c (hfin c).1 (hfin c).2), (h c).2⟩)
    (Cert.KernelIdeal.Value.run_blocks m ρ)

end Cert.PolyFeat.Ker

end
-- ==== Proof.lean ====
/-
  Both programs compute one function of their two arguments `x : [1000000, 3]` and `a : [96, 3]`. Extend each row of `x`
  by a one to `z = (x₀, x₁, x₂, 1)`, form the sixteen products `z_j · z_k` (feature `4 j + k`), repeat the sixteen
  features six times, and multiply the [1000000, 96] array of repeated features into `a`:
  `G x a (n, c) = ∑ k < 96, z_n ((k mod 16) / 4) · z_n ((k mod 16) mod 4) · a (k, c)`.

  The reference does exactly this. The kernel first adds the six [16, 3] row blocks of `a` up and then, row block by
  row block over a grid of 125 points, multiplies the [8000, 16] feature block into the [16, 3] sum. The two agree by
  distributivity, which on the extended reals needs the entries to be real numbers: that is the precondition. A change of
  float format is the identity at the ideal values, and the two patterns for the joined column (sixteen and thirty-two bits)
  both denote the real number one.

  The pieces: `Proof/TileLaw.lean` (`G` and the law), `Proof/Finite.lean` (the precondition gives real entries),
  `Proof/RefValue.lean` (the reference is `G`), `Proof/Payload.lean` (the body's arithmetic at an entry) and
  `Proof/Blocks.lean` (each grid point writes a block of `G`, and the blocks cover the result).
-/
import proofs.«117578_j4303557230990_1_alg».proof.Defs
import proofs.«117578_j4303557230990_1_alg».proof.Proof.Gen.Kernel
import proofs.«117578_j4303557230990_1_alg».proof.Proof.Gen.Kernel.Skeleton
import proofs.«117578_j4303557230990_1_alg».proof.Proof.Gen.Kernel.Launch
import proofs.«117578_j4303557230990_1_alg».proof.Proof.Gen.Kernel.Points
import proofs.«117578_j4303557230990_1_alg».proof.Proof.Gen.Kernel.Frame
import proofs.«117578_j4303557230990_1_alg».proof.Proof.Gen.KernelIdeal
import proofs.«117578_j4303557230990_1_alg».proof.Proof.Gen.KernelIdeal.Skeleton
import proofs.«117578_j4303557230990_1_alg».proof.Proof.Gen.KernelIdeal.Launch
import proofs.«117578_j4303557230990_1_alg».proof.Proof.Gen.KernelIdeal.Points
import proofs.«117578_j4303557230990_1_alg».proof.Proof.Gen.KernelIdeal.Frame
import proofs.«117578_j4303557230990_1_alg».proof.Proof.Gen.ReferenceIdeal
import proofs.«117578_j4303557230990_1_alg».proof.Proof.Gen.Pre_finite_inputs
import proofs.«117578_j4303557230990_1_alg».proof.Proof.Gen.KernelIdeal.Value
import proofs.«117578_j4303557230990_1_alg».proof.Proof.Gen.ReferenceIdeal.Run
import proofs.«117578_j4303557230990_1_alg».proof.Proof.Gen.ReferenceIdeal.Read
import proofs.«117578_j4303557230990_1_alg».proof.Proof.Finite
import proofs.«117578_j4303557230990_1_alg».proof.Proof.RefValue
import proofs.«117578_j4303557230990_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading: nothing to preserve. -/
theorem preserves : Cert.preserves_Kernel_KernelIdeal := trivial

/-- From memories that agree on the two arguments, whose entries the precondition makes real numbers, the kernel's
    result array ends at `G` of the arguments (its blocks, by distributivity) and so does the reference's (its operations
    read one at a time). -/
theorem algebraic : Cert.algebraic_KernelIdeal_ReferenceIdeal := by
  intro m ρ m' ρ' hpre hagree
  have hfin := fun c : Dev Cert.KernelIdeal.nD => Cert.PolyFeat.finite_of_pre _ _ (hpre c)
  refine ⟨fun c => Cert.PolyFeat.G (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.PolyFeat.Ker.run ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.PolyFeat.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
